-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : FVec F S128x64 .f32) (main_arg5 : FVec F S64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S1600000x1 : Shape := ⟨2, ![1600000, 1]⟩
abbrev S_ : Shape := ⟨0, ![]⟩
abbrev S1600000x128 : Shape := ⟨2, ![1600000, 128]⟩
abbrev S128x128 : Shape := ⟨2, ![128, 128]⟩
abbrev S128 : Shape := ⟨1, ![128]⟩
abbrev S1x128 : Shape := ⟨2, ![1, 128]⟩
abbrev S100000x64 : Shape := ⟨2, ![100000, 64]⟩
abbrev S10000x128 : Shape := ⟨2, ![10000, 128]⟩
abbrev S10000x64 : Shape := ⟨2, ![10000, 64]⟩

abbrev nBuf : Space → Nat
  | .hbm => 29
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S128x128, .f32⟩
  | .hbm, ⟨25, _⟩ => ⟨S128, .f32⟩
  | .hbm, ⟨26, _⟩ => ⟨S1x128, .f32⟩
  | .hbm, ⟨27, _⟩ => ⟨S100000x64, .f32⟩
  | .hbm, ⟨28, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S128x64_S128x64_S128x128_d1 : Shape.Concatenates [S128x64, S128x64] S128x128 1
  concatenates_S64_S64_S128_d0 : Shape.Concatenates [S64, S64] S128 0
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S10000x128_o0_0_S10000x64 : S10000x128.Slices ![0, 0] S10000x64
  inb_S10000x64_S10000x64_0_0 : ∀ a, (![0, 0] : Fin 2 → Nat) a + S10000x64.size a ≤ S10000x64.size a
  h_S10000x64 : 0 < S10000x64.numel
  slices_S10000x128_o0_64_S10000x64 : S10000x128.Slices ![0, 64] S10000x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v12) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩
abbrev S1x64 : Shape := ⟨2, ![1, 64]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v21 : Ref sig .tc := ⟨.hbm, 39, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Projection.lean ====
/-
  Two linear read-outs of one table of aggregated features, as functions of the table.

  A table `A` of 100000 rows and 128 columns is multiplied by a 128 × 64 weight matrix `W` and a bias
  row `b` of 64 entries is added:  entry (n, j) of the first read-out is

      (∑ₖ A[n, k] · W[k, j]) + b[j],          k over the 128 columns.

  The second read-out is the same expression, with its own weights and bias, clipped to the interval
  [-10, 3]:  min (3, max (-10, ·)).  Both are functions into the extended reals, total on every table:
  a sum of products and one more addition, with the conventions of the extended reals at the infinities.
-/
import Idealize.ShloMosaic.PureOps.Ideal
import Idealize.ShloMosaic.Lib.ValueIdx

noncomputable section

namespace Cert.Projection

open Idealize.ShloMosaic Idealize.ShloMosaic.ValueIdx

/-- Row `n` of the table against column `j` of the weights, plus entry `j` of the bias. -/
def entry (A : (⟨2, ![100000, 128]⟩ : Shape).Idx → EReal) (W : (⟨2, ![128, 64]⟩ : Shape).Idx → EReal)
    (b : (⟨1, ![64]⟩ : Shape).Idx → EReal) (n : Fin 100000) (j : Fin 64) : EReal :=
  (∑ k : Fin 128, A (ix2 n k) * W (ix2 k j)) + b (ix1 j)

/-- The first read-out: `A · W + b`, one entry per row of the table and column of the weights. -/
def affine (A : (⟨2, ![100000, 128]⟩ : Shape).Idx → EReal) (W : (⟨2, ![128, 64]⟩ : Shape).Idx → EReal)
    (b : (⟨1, ![64]⟩ : Shape).Idx → EReal) : (⟨2, ![100000, 64]⟩ : Shape).Idx → EReal :=
  fun i => entry A W b (i 0) (i 1)

/-- The second read-out: `A · W + b` clipped to [-10, 3]. The bounds are the single-precision numbers with
    the bit patterns `0xC1200000` (which is -10) and `0x40400000` (which is 3). -/
def clipped (A : (⟨2, ![100000, 128]⟩ : Shape).Idx → EReal) (W : (⟨2, ![128, 64]⟩ : Shape).Idx → EReal)
    (b : (⟨1, ![64]⟩ : Shape).Idx → EReal) : (⟨2, ![100000, 64]⟩ : Shape).Idx → EReal :=
  fun i => min (Ideal.ofBits .f32 0x40400000#32) (max (Ideal.ofBits .f32 0xC1200000#32) (entry A W b (i 0) (i 1)))

/-- Column `j` of the first of two 64-column matrices set side by side is column `j` of the 128 joined columns. -/
def lo (j : Fin 64) : Fin 128 := ⟨j.val, by have := j.isLt; omega⟩

/-- Column `j` of the second is column `j + 64` of the joined columns. -/
def hi (j : Fin 64) : Fin 128 := ⟨j.val + 64, by have := j.isLt; omega⟩

/-- Multiplying by joined weights and adding a joined bias, read in the columns `h j` that one of the joined parts
    occupies, is multiplying by that part and adding its bias: whenever the joined weights `Wc` hold `W` and the
    joined bias row `bc` holds `b` in those columns, the sums have the same terms. -/
theorem entry_of_joined (A : (⟨2, ![100000, 128]⟩ : Shape).Idx → EReal) (Wc : (⟨2, ![128, 128]⟩ : Shape).Idx → EReal)
    (bc : (⟨2, ![1, 128]⟩ : Shape).Idx → EReal) (W : (⟨2, ![128, 64]⟩ : Shape).Idx → EReal)
    (b : (⟨1, ![64]⟩ : Shape).Idx → EReal) (h : Fin 64 → Fin 128)
    (hW : ∀ (k : Fin 128) (j : Fin 64), Wc (ix2 k (h j)) = W (ix2 k j))
    (hb : ∀ j : Fin 64, bc (ix2 (0 : Fin 1) (h j)) = b (ix1 j)) (n : Fin 100000) (j : Fin 64) :
    (∑ k : Fin 128, A (ix2 n k) * Wc (ix2 k (h j))) + bc (ix2 (0 : Fin 1) (h j)) = entry A W b n j := by
  unfold entry
  rw [hb j]
  exact congrArg (· + b (ix1 j)) (Finset.sum_congr rfl fun k _ => by rw [hW k j])

theorem affine_ix2 (A : (⟨2, ![100000, 128]⟩ : Shape).Idx → EReal) (W : (⟨2, ![128, 64]⟩ : Shape).Idx → EReal)
    (b : (⟨1, ![64]⟩ : Shape).Idx → EReal) (n : Fin 100000) (j : Fin 64) :
    affine A W b (ix2 n j) = entry A W b n j := rfl

theorem clipped_ix2 (A : (⟨2, ![100000, 128]⟩ : Shape).Idx → EReal) (W : (⟨2, ![128, 64]⟩ : Shape).Idx → EReal)
    (b : (⟨1, ![64]⟩ : Shape).Idx → EReal) (n : Fin 100000) (j : Fin 64) :
    clipped A W b (ix2 n j)
      = min (Ideal.ofBits .f32 0x40400000#32) (max (Ideal.ofBits .f32 0xC1200000#32) (entry A W b n j)) := rfl

end Cert.Projection

end
-- ==== Proof.KernelBlock.lean ====
/-
  What one grid point of the kernel computes, entry by entry.

  A grid point holds a block of 10000 rows of the aggregated table (10000 × 128), the joined weights
  (128 × 128: the two 128 × 64 weight matrices side by side) and the joined bias (one row of 128).  It
  multiplies the block by the joined weights from a zero accumulator — the change of number format in
  front of the product is the identity on the extended reals — and adds the bias row to every row: at
  (p, q) the value is  (∑ₖ block[p, k] · weights[k, q]) + bias[0, q].  The first output block is the
  columns 0 … 63 of that array, the second is the columns 64 … 127 clipped to [-10, 3].
-/
import proofs.«173173_j27487790695252_2_alg».proof.Proof.Gen.KernelIdeal.Value
import proofs.«173173_j27487790695252_2_alg».proof.Proof.Projection
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-! ## The block product as a sum over the contracted axis -/

theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of a 10000 × 128 block with a 128 × 128 matrix, from a zero accumulator, at (p, q): the sum over
    the 128 contracted positions of row `p` of the block against column `q` of the matrix. -/
theorem product_apply (Lv : FVec Ideal S10000x128 .bf16) (Rv : FVec Ideal S128x128 .bf16) (p : Fin 10000) (q : Fin 128) :
    matmul (F := Ideal) dot_S10000x128_S128x128_S10000x128_1_0_0_1_n_n none Lv Rv (constant (F := Ideal) S10000x128 .f32 0x00000000#32) (ix2 p q)
      = ∑ k : Fin 128, Lv (ix2 p k) * Rv (ix2 k q) := by
  refine (Ideal.matmul_constant_zero_apply dot_S10000x128_S128x128_S10000x128_1_0_0_1_n_n none Lv Rv (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The array a grid point computes before it is cut into the two outputs -/

/-- Block times joined weights plus the joined bias row, at (p, q). -/
theorem pay1_apply (P0 : Vec Ideal S10000x128 .f32) (P1 : Vec Ideal S128x128 .f32) (P2 : Vec Ideal S1x128 .f32)
    (p : Fin 10000) (q : Fin 128) :
    k0_pay1 (F := Ideal) P0 P1 P2 (ix2 p q) = (∑ k : Fin 128, P0 (ix2 p k) * P1 (ix2 k q)) + P2 (ix2 (0 : Fin 1) q) := by
  unfold k0_pay1
  show ((matmul (F := Ideal) dot_S10000x128_S128x128_S10000x128_1_0_0_1_n_n none (truncf (F := Ideal) .bf16 (shapeCast S10000x128 P0 shapeCasts_S10000x128_S10000x128) bitsLt_bf16_f32)
        (truncf (F := Ideal) .bf16 (shapeCast S128x128 P1 shapeCasts_S128x128_S128x128) bitsLt_bf16_f32)
        (constant (F := Ideal) S10000x128 .f32 0x00000000#32)) (ix2 p q) : EReal)
      + ((broadcastTo S10000x128 (shapeCast S1x128 P2 shapeCasts_S1x128_S1x128) broadcasts_S1x128_S10000x128) (ix2 p q) : EReal) = _
  refine congrArg₂ (· + ·) ?_ ?_
  · refine (product_apply _ _ p q).trans ?_
    refine Finset.sum_congr rfl fun k _ => ?_
    show ((shapeCast S10000x128 P0 shapeCasts_S10000x128_S10000x128) (ix2 p k) : EReal) * ((shapeCast S128x128 P1 shapeCasts_S128x128_S128x128) (ix2 k q) : EReal) = _
    rw [shapeCast_self, shapeCast_self]
  · refine (broadcastTo_1b_ab_apply _ broadcasts_S1x128_S10000x128 p q).trans ?_
    rw [shapeCast_self]

/-! ## The two output blocks -/

/-- The first output block reads the computed array in its columns 0 … 63. -/
theorem ix3_lo (p : Fin 10000) (j : Fin 64) : Value.ix3_0 (ix2 p j) = ix2 p (Projection.lo j) :=
  funext fun a => Fin.ext (by match a with | ⟨0, _⟩ => rfl | ⟨1, _⟩ => rfl)

/-- The second output block reads it in its columns 64 … 127. -/
theorem ix4_hi (p : Fin 10000) (j : Fin 64) : Value.ix4_0 (ix2 p j) = ix2 p (Projection.hi j) :=
  funext fun a => Fin.ext (by match a with | ⟨0, _⟩ => rfl | ⟨1, _⟩ => rfl)

/-- Entry (p, j) of the first output block. -/
theorem first_apply (P0 : Vec Ideal S10000x128 .f32) (P1 : Vec Ideal S128x128 .f32) (P2 : Vec Ideal S1x128 .f32)
    (p : Fin 10000) (j : Fin 64) :
    Value.E3 (F := Ideal) P0 P1 P2 (ix2 p j)
      = (∑ k : Fin 128, P0 (ix2 p k) * P1 (ix2 k (Projection.lo j))) + P2 (ix2 (0 : Fin 1) (Projection.lo j)) := by
  show k0_pay1 (F := Ideal) P0 P1 P2 (Value.ix3_0 (ix2 p j)) = _
  rw [ix3_lo]
  exact pay1_apply P0 P1 P2 p (Projection.lo j)

/-- Entry (p, j) of the second output block: the same expression in column j + 64, clipped to [-10, 3]. -/
theorem second_apply (P0 : Vec Ideal S10000x128 .f32) (P1 : Vec Ideal S128x128 .f32) (P2 : Vec Ideal S1x128 .f32)
    (p : Fin 10000) (j : Fin 64) :
    Value.E4 (F := Ideal) P0 P1 P2 (ix2 p j)
      = min (Ideal.ofBits .f32 0x40400000#32) (max (Ideal.ofBits .f32 0xC1200000#32)
          ((∑ k : Fin 128, P0 (ix2 p k) * P1 (ix2 k (Projection.hi j))) + P2 (ix2 (0 : Fin 1) (Projection.hi j)))) := by
  show min (Ideal.ofBits .f32 0x40400000#32) (max (Ideal.ofBits .f32 0xC1200000#32)
      (k0_pay1 (F := Ideal) P0 P1 P2 (Value.ix4_0 (ix2 p j)))) = _
  rw [ix4_hi, pay1_apply P0 P1 P2 p (Projection.hi j)]

/-! ## A block's entries as entries of the whole read-outs

Stated over variables: `T` is the whole aggregated table, `Wc` and `bc` the joined weights and bias, and
`P0`, `P1`, `P2` what a grid point holds of them — row `p` of `P0` is row `n` of `T`, and `P1`, `P2` are
all of `Wc`, `bc`.  Then entry (p, j) of either output block is entry (n, j) of the whole read-out. -/

theorem first_entry (T : (⟨2, ![100000, 128]⟩ : Shape).Idx → EReal) (Wc : (⟨2, ![128, 128]⟩ : Shape).Idx → EReal)
    (bc : (⟨2, ![1, 128]⟩ : Shape).Idx → EReal) (W : (⟨2, ![128, 64]⟩ : Shape).Idx → EReal) (b : (⟨1, ![64]⟩ : Shape).Idx → EReal)
    (hW : ∀ (k : Fin 128) (j : Fin 64), Wc (ix2 k (Projection.lo j)) = W (ix2 k j))
    (hb : ∀ j : Fin 64, bc (ix2 (0 : Fin 1) (Projection.lo j)) = b (ix1 j))
    (P0 : Vec Ideal S10000x128 .f32) (P1 : Vec Ideal S128x128 .f32) (P2 : Vec Ideal S1x128 .f32)
    (n : Fin 100000) (p : Fin 10000) (j : Fin 64)
    (h0 : ∀ k : Fin 128, P0 (ix2 p k) = T (ix2 n k)) (h1 : ∀ k q : Fin 128, P1 (ix2 k q) = Wc (ix2 k q))
    (h2 : ∀ q : Fin 128, P2 (ix2 (0 : Fin 1) q) = bc (ix2 (0 : Fin 1) q)) :
    Value.E3 (F := Ideal) P0 P1 P2 (ix2 p j) = Projection.affine T W b (ix2 n j) := by
  rw [first_apply, Projection.affine_ix2, ← Projection.entry_of_joined T Wc bc W b Projection.lo hW hb n j, h2]
  exact congrArg (· + bc (ix2 (0 : Fin 1) (Projection.lo j))) (Finset.sum_congr rfl fun k _ => by rw [h0 k, h1 k])

theorem second_entry (T : (⟨2, ![100000, 128]⟩ : Shape).Idx → EReal) (Wc : (⟨2, ![128, 128]⟩ : Shape).Idx → EReal)
    (bc : (⟨2, ![1, 128]⟩ : Shape).Idx → EReal) (W : (⟨2, ![128, 64]⟩ : Shape).Idx → EReal) (b : (⟨1, ![64]⟩ : Shape).Idx → EReal)
    (hW : ∀ (k : Fin 128) (j : Fin 64), Wc (ix2 k (Projection.hi j)) = W (ix2 k j))
    (hb : ∀ j : Fin 64, bc (ix2 (0 : Fin 1) (Projection.hi j)) = b (ix1 j))
    (P0 : Vec Ideal S10000x128 .f32) (P1 : Vec Ideal S128x128 .f32) (P2 : Vec Ideal S1x128 .f32)
    (n : Fin 100000) (p : Fin 10000) (j : Fin 64)
    (h0 : ∀ k : Fin 128, P0 (ix2 p k) = T (ix2 n k)) (h1 : ∀ k q : Fin 128, P1 (ix2 k q) = Wc (ix2 k q))
    (h2 : ∀ q : Fin 128, P2 (ix2 (0 : Fin 1) q) = bc (ix2 (0 : Fin 1) q)) :
    Value.E4 (F := Ideal) P0 P1 P2 (ix2 p j) = Projection.clipped T W b (ix2 n j) := by
  rw [second_apply, Projection.clipped_ix2, ← Projection.entry_of_joined T Wc bc W b Projection.hi hW hb n j, h2]
  exact congrArg (fun s => min (Ideal.ofBits .f32 0x40400000#32) (max (Ideal.ofBits .f32 0xC1200000#32)
    (s + bc (ix2 (0 : Fin 1) (Projection.hi j))))) (Finset.sum_congr rfl fun k _ => by rw [h0 k, h1 k])

end Cert.KernelIdeal.BlockValue

end
-- ==== Proof.EntryArrays.lean ====
/-
  The three arrays the kernel's grid points read, as the run finds them.

  Before the grid starts, the program has built:  the aggregated table (rows of the input gathered by
  the column indices, scaled by the edge values and added into the rows named by the row indices);
  the joined weights — the two 128 × 64 weight matrices side by side, a 128 × 128 matrix whose columns
  0 … 63 are the first matrix and whose columns 64 … 127 are the second; and the joined bias — the two
  bias vectors end to end, laid out as one row of 128.

  The aggregated table is built by exactly the operations the reference builds its own table with, so
  the two are one array of the inputs; nothing else about it is used.  The joined weights and bias are read at an
  entry: each half gives back the matrix, or vector, it was joined from.
-/
import proofs.«173173_j27487790695252_2_alg».proof.Proof.Gen.KernelIdeal.Frame
import proofs.«173173_j27487790695252_2_alg».proof.Proof.Gen.ReferenceIdeal.Read
import proofs.«173173_j27487790695252_2_alg».proof.Proof.Projection
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.EntryValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## The aggregated table -/

/-- The aggregated table the grid reads is the reference's aggregated table of the same four inputs: the same
    gather, scaling and scatter-add, operation by operation. -/
theorem table_eq :
    (V m c main_v12 : S100000x128.Idx → EReal)
      = Cert.ReferenceIdeal.Read.val_main_v12 (F := Ideal) (m ((c : Thread nD τ).loc main_arg0))
          (m ((c : Thread nD τ).loc main_arg1)) (m ((c : Thread nD τ).loc main_arg2)) (m ((c : Thread nD τ).loc main_arg3)) := by
  dsimp only [Gen.V, Gen.hostOps0]
  after_results
  rfl

/-! ## The joined weights -/

theorem weights_eq :
    (V m c main_v13 : S128x128.Idx → EReal)
      = concatenate S128x128 1 [⟨S128x64, m ((c : Thread nD τ).loc main_arg4)⟩, ⟨S128x64, m ((c : Thread nD τ).loc main_arg6)⟩]
          concatenates_S128x64_S128x64_S128x128_d1 := by
  dsimp only [Gen.V, Gen.hostOps0]
  after_results

/-- Columns 0 … 63 of the joined weights are the first weight matrix. -/
theorem weights_lo (k : Fin 128) (j : Fin 64) :
    (V m c main_v13 : S128x128.Idx → EReal) (ix2 k (Projection.lo j))
      = (m ((c : Thread nD τ).loc main_arg4) : S128x64.Idx → EReal) (ix2 k j) := by
  rw [weights_eq]
  exact concatenate_pair_apply_left (1 : Fin S128x128.rank) _ _ concatenates_S128x64_S128x64_S128x128_d1
    (ix2 k (Projection.lo j)) rfl (ix2 k j) (fun b => by match b with | ⟨0, _⟩ => rfl | ⟨1, _⟩ => rfl)

/-- Columns 64 … 127 of the joined weights are the second weight matrix. -/
theorem weights_hi (k : Fin 128) (j : Fin 64) :
    (V m c main_v13 : S128x128.Idx → EReal) (ix2 k (Projection.hi j))
      = (m ((c : Thread nD τ).loc main_arg6) : S128x64.Idx → EReal) (ix2 k j) := by
  rw [weights_eq]
  exact concatenate_pair_apply_right (1 : Fin S128x128.rank) _ _ concatenates_S128x64_S128x64_S128x128_d1
    (ix2 k (Projection.hi j)) rfl rfl (ix2 k j)
    (fun b hb => by match b with | ⟨0, _⟩ => rfl | ⟨1, _⟩ => exact absurd rfl hb)
    (by show j.val + 64 = j.val + 64; rfl)

/-! ## The joined bias -/

theorem bias_eq :
    (V m c main_v15 : S1x128.Idx → EReal)
      = shapeCast S1x128 (concatenate S128 0 [⟨S64, m ((c : Thread nD τ).loc main_arg5)⟩, ⟨S64, m ((c : Thread nD τ).loc main_arg7)⟩]
          concatenates_S64_S64_S128_d0) shapeCasts_S128_S1x128 := by
  dsimp only [Gen.V, Gen.hostOps0]
  after_results
  rfl

/-- The one row of the joined bias, read at column `q`, is the joined vector at `q`. -/
theorem row_idx (q : Fin 128) : (fun a : Fin 1 => (ix2 (0 : Fin 1) q : S1x128.Idx) a.succ) = (ix1 q : S128.Idx) :=
  funext fun a => by match a with | ⟨0, _⟩ => rfl

/-- Entries 0 … 63 of the joined bias row are the first bias vector. -/
theorem bias_lo (j : Fin 64) :
    (V m c main_v15 : S1x128.Idx → EReal) (ix2 (0 : Fin 1) (Projection.lo j))
      = (m ((c : Thread nD τ).loc main_arg5) : S64.Idx → EReal) (ix1 j) := by
  rw [bias_eq]
  refine (shapeCast_addUnit_apply ![128] _ shapeCasts_S128_S1x128 (ix2 (0 : Fin 1) (Projection.lo j))).trans ?_
  rw [row_idx]
  exact concatenate_pair_apply_left (0 : Fin S128.rank) _ _ concatenates_S64_S64_S128_d0
    (ix1 (Projection.lo j)) rfl (ix1 j) (fun b => by match b with | ⟨0, _⟩ => rfl)

/-- Entries 64 … 127 of the joined bias row are the second bias vector. -/
theorem bias_hi (j : Fin 64) :
    (V m c main_v15 : S1x128.Idx → EReal) (ix2 (0 : Fin 1) (Projection.hi j))
      = (m ((c : Thread nD τ).loc main_arg7) : S64.Idx → EReal) (ix1 j) := by
  rw [bias_eq]
  refine (shapeCast_addUnit_apply ![128] _ shapeCasts_S128_S1x128 (ix2 (0 : Fin 1) (Projection.hi j))).trans ?_
  rw [row_idx]
  exact concatenate_pair_apply_right (0 : Fin S128.rank) _ _ concatenates_S64_S64_S128_d0
    (ix1 (Projection.hi j)) rfl rfl (ix1 j)
    (fun b hb => by match b with | ⟨0, _⟩ => exact absurd rfl hb)
    (by show j.val + 64 = j.val + 64; rfl)

end Cert.KernelIdeal.EntryValue

end
-- ==== Proof.KernelArrays.lean ====
/-
  From blocks to the whole outputs.

  The grid has 10 points.  Point `t` reads rows t·10000 … t·10000 + 9999 of the aggregated table, and all of
  the joined weights and the joined bias, and writes the same rows of each of the two outputs.  The 10
  blocks tile the 100000 rows, so each output, after the run, is one function of the inputs at every
  entry: the first is `table · W₁ + b₁`, the second `table · W₂ + b₂` clipped to [-10, 3], where the table
  is the aggregated table — the same array the reference aggregates.

  Which rows a block holds, and that a point writes a block of a given array, are facts about positions
  only; they are stated for any kind of numbers.  The arithmetic enters in the last section.
-/
import proofs.«173173_j27487790695252_2_alg».proof.Proof.Gen.KernelIdeal.Value
import proofs.«173173_j27487790695252_2_alg».proof.Proof.KernelBlock
import proofs.«173173_j27487790695252_2_alg».proof.Proof.EntryArrays
import proofs.«173173_j27487790695252_2_alg».proof.Proof.Projection

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

/-! ## The grid -/

theorem zero_offsets : (![0, 0] : Fin 2 → Nat) = fun _ => 0 := funext fun a => by fin_cases a <;> rfl

/-- Where each point's blocks sit, decided over the 10 points: the table's block and the two outputs' blocks of
    point `t` are block-row `t`; the weights and the bias are the one block there is. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 10 := Nat.lt_of_lt_of_eq t.isLt N_0

/-- The grid point numbered `r`. -/
def pointOf (r : Fin 10) : Fin cfg0.N := ⟨r.val, by rw [show cfg0.N = 10 from N_0]; exact r.isLt⟩

/-! ## Positions: what a point reads and where it writes, for any kind of numbers -/

section Positions

variable {F : FTy → Type} [FloatOps F]
variable (m : (ℓ : Loc nD τ sig) → Buf (Elt F) ℓ)

/-- Row `p` of point `t`'s block of the table is row t·10000 + p of the table. -/
theorem table_block (c : Dev nD) (t : Fin cfg0.N) (p : Fin 10000) (k : Fin 128) (n : Fin 100000)
    (hn : n.val = t.val * 10000 + p.val) :
    (iblk m c 0 t : Vec F S10000x128 .f32) (ix2 p k) = (V m c main_v12 : S100000x128.Idx → Elt F .f32) (ix2 n k) := by
  obtain ⟨e00, e01, e10, e11, e20, e21, e30, e31, e40, e41⟩ := index_facts t
  have e : ((cfg0.win 0).blk t).view.emb (ix2 p k) = (ix2 n k : S100000x128.Idx) := by
    funext a; apply Fin.ext
    match a with
    | ⟨0, _⟩ => show win0_0.index t (0 : Fin 2) * 10000 + 1 * p.val = n.val; omega
    | ⟨1, _⟩ => show win0_0.index t (1 : Fin 2) * 128 + 1 * k.val = k.val; omega
  show V m c main_v12 (((cfg0.win 0).blk t).view.emb (ix2 p k)) = V m c main_v12 (ix2 n k)
  rw [e]

/-- Every point holds the joined weights whole. -/
theorem weights_block (c : Dev nD) (t : Fin cfg0.N) (k q : Fin 128) :
    (iblk m c 1 t : Vec F S128x128 .f32) (ix2 k q) = (V m c main_v13 : S128x128.Idx → Elt F .f32) (ix2 k q) := by
  obtain ⟨e00, e01, e10, e11, e20, e21, e30, e31, e40, e41⟩ := index_facts t
  have e : ((cfg0.win 1).blk t).view.emb (ix2 k q) = (ix2 k q : S128x128.Idx) := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  show V m c main_v13 (((cfg0.win 1).blk t).view.emb (ix2 k q)) = V m c main_v13 (ix2 k q)
  rw [e]

/-- And the joined bias row whole. -/
theorem bias_block (c : Dev nD) (t : Fin cfg0.N) (q : Fin 128) :
    (iblk m c 2 t : Vec F S1x128 .f32) (ix2 (0 : Fin 1) q) = (V m c main_v15 : S1x128.Idx → Elt F .f32) (ix2 (0 : Fin 1) q) := by
  obtain ⟨e00, e01, e10, e11, e20, e21, e30, e31, e40, e41⟩ := index_facts t
  have e : ((cfg0.win 2).blk t).view.emb (ix2 (0 : Fin 1) q) = (ix2 (0 : Fin 1) q : S1x128.Idx) := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  show V m c main_v15 (((cfg0.win 2).blk t).view.emb (ix2 (0 : Fin 1) q)) = V m c main_v15 (ix2 (0 : Fin 1) q)
  rw [e]

/-- Point `t` writes back block `t` of any array `G` whose entry (t·10000 + p, j) is the first output block's entry
    (p, j), for all p and j. -/
theorem flushed3_of (c : Dev nD) (t : Fin cfg0.N) (G : S100000x64.Idx → Elt F .f32)
    (hG : ∀ (p : Fin 10000) (j : Fin 64) (n : Fin 100000), n.val = t.val * 10000 + p.val →
      Value.E3 (iblk m c 0 t) (iblk m c 1 t) (iblk m c 2 t) (ix2 p j) = G (ix2 n j)) :
    (dats m 0 c).flushed 3 t = ((cfg0.win 3).blk t).view.read (Elt F) G := by
  rw [Value.flushed3]
  unfold out0_3
  simp only [View.ld_unit_zero (S := S10000x128) zero_offsets, View.ld_unit_zero (S := S128x128) zero_offsets,
    View.ld_unit_zero (S := S1x128) zero_offsets]
  obtain ⟨e00, e01, e10, e11, e20, e21, e30, e31, e40, e41⟩ := index_facts t
  have ht : t.val < 10 := point_lt t
  funext y
  obtain ⟨p, j, rfl⟩ : ∃ (p : Fin 10000) (j : Fin 64), y = ix2 p j := ⟨y 0, y 1, eq_ix2 y⟩
  have hp : p.val < 10000 := p.isLt
  refine (Value.canon3_eq (iblk m c 0 t) (iblk m c 1 t) (iblk m c 2 t) (ix2 p j)).trans ?_
  let n : Fin 100000 := ⟨t.val * 10000 + p.val, by omega⟩
  have hemb : ((cfg0.win 3).blk t).view.emb (ix2 p j) = (ix2 n j : S100000x64.Idx) := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * j.val = j.val; omega
  show Value.E3 (iblk m c 0 t) (iblk m c 1 t) (iblk m c 2 t) (ix2 p j) = G (((cfg0.win 3).blk t).view.emb (ix2 p j))
  rw [hemb]
  exact hG p j n rfl

/-- An index of the first output is in point `t`'s block iff each coordinate is in the block's range on its axis. -/
theorem mem_blk3 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v16_0).slice (win0_3.rect t)).set ↔ _
  rw [View.set_slice_whole, Rect.mem_set_unit]
  exact Iff.rfl

/-- Every entry of the first output is written: row `r` lies in the block of point `r / 10000`. -/
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := pointOf ⟨(i 0).val / 10000, by omega⟩
  have htv : t.val = (i 0).val / 10000 := rfl
  obtain ⟨e00, e01, e10, e11, e20, e21, e30, e31, e40, e41⟩ := index_facts t
  refine ⟨t, flush0_3 t, ?_⟩
  rw [mem_blk3]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- Point `t` writes back block `t` of any array `G` whose entry (t·10000 + p, j) is the second output block's entry
    (p, j), for all p and j. -/
theorem flushed4_of (c : Dev nD) (t : Fin cfg0.N) (G : S100000x64.Idx → Elt F .f32)
    (hG : ∀ (p : Fin 10000) (j : Fin 64) (n : Fin 100000), n.val = t.val * 10000 + p.val →
      Value.E4 (iblk m c 0 t) (iblk m c 1 t) (iblk m c 2 t) (ix2 p j) = G (ix2 n j)) :
    (dats m 0 c).flushed 4 t = ((cfg0.win 4).blk t).view.read (Elt F) G := by
  rw [Value.flushed4]
  unfold out0_4
  simp only [View.ld_unit_zero (S := S10000x128) zero_offsets, View.ld_unit_zero (S := S128x128) zero_offsets,
    View.ld_unit_zero (S := S1x128) zero_offsets]
  obtain ⟨e00, e01, e10, e11, e20, e21, e30, e31, e40, e41⟩ := index_facts t
  have ht : t.val < 10 := point_lt t
  funext y
  obtain ⟨p, j, rfl⟩ : ∃ (p : Fin 10000) (j : Fin 64), y = ix2 p j := ⟨y 0, y 1, eq_ix2 y⟩
  have hp : p.val < 10000 := p.isLt
  refine (Value.canon4_eq (iblk m c 0 t) (iblk m c 1 t) (iblk m c 2 t) (ix2 p j)).trans ?_
  let n : Fin 100000 := ⟨t.val * 10000 + p.val, by omega⟩
  have hemb : ((cfg0.win 4).blk t).view.emb (ix2 p j) = (ix2 n j : S100000x64.Idx) := by
    funext a; apply Fin.ext
    match a with
    | ⟨0, _⟩ => show win0_4.index t (0 : Fin 2) * 10000 + 1 * p.val = t.val * 10000 + p.val; omega
    | ⟨1, _⟩ => show win0_4.index t (1 : Fin 2) * 64 + 1 * j.val = j.val; omega
  show Value.E4 (iblk m c 0 t) (iblk m c 1 t) (iblk m c 2 t) (ix2 p j) = G (((cfg0.win 4).blk t).view.emb (ix2 p j))
  rw [hemb]
  exact hG p j n rfl

/-- An index of the second output is in point `t`'s block iff each coordinate is in the block's range on its axis. -/
theorem mem_blk4 (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v16_1).slice (win0_4.rect t)).set ↔ _
  rw [View.set_slice_whole, Rect.mem_set_unit]
  exact Iff.rfl

/-- Every entry of the second output is written: row `r` lies in the block of point `r / 10000`. -/
theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  let t : Fin cfg0.N := pointOf ⟨(i 0).val / 10000, by omega⟩
  have htv : t.val = (i 0).val / 10000 := rfl
  obtain ⟨e00, e01, e10, e11, e20, e21, e30, e31, e40, e41⟩ := index_facts t
  refine ⟨t, flush0_4 t, ?_⟩
  rw [mem_blk4]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 64 ≤ (i 1).val ∧ (i 1).val < win0_4.index t (1 : Fin 2) * 64 + 64; omega

end Positions

/-! ## Values: the two outputs over the extended reals -/

variable (m : (ℓ : Loc nD τ sig) → Buf (Elt Ideal) ℓ) (ρ : Dev nD → PrngReg)

/-- What grid point `t` writes back is block `t` — rows t·10000 … t·10000 + 9999 — of the first read-out of the
    table, with the weights and bias the joined arrays hold in their first halves. -/
theorem flushed3_eq (c : Dev nD) (t : Fin cfg0.N) :
    (dats m 0 c).flushed 3 t
      = ((cfg0.win 3).blk t).view.read (Elt Ideal)
          (Projection.affine (V m c main_v12) (m ((c : Thread nD τ).loc main_arg4)) (m ((c : Thread nD τ).loc main_arg5))) :=
  flushed3_of m c t _ fun p j n hn =>
    BlockValue.first_entry (V m c main_v12) (V m c main_v13) (V m c main_v15) (m ((c : Thread nD τ).loc main_arg4)) (m ((c : Thread nD τ).loc main_arg5))
      (EntryValue.weights_lo m c) (EntryValue.bias_lo m c) (iblk m c 0 t) (iblk m c 1 t) (iblk m c 2 t) n p j
      (fun k => table_block m c t p k n hn) (fun k q => weights_block m c t k q) (fun q => bias_block m c t q)

/-- The first output after the run is the first read-out of the aggregated table — the table written as the
    reference's own table of the inputs. -/
theorem final3 (c : Dev nD) :
    (dats m 0 c).arrAt 3 cfg0.N = Projection.affine (Cert.ReferenceIdeal.Read.val_main_v12 (F := Ideal) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) := by
  rw [← EntryValue.table_eq m c]
  exact (dats m 0 c).arrAt_eq_of_cover 3 _ (fun t _ => flushed3_eq m c t) cover3

/-- What grid point `t` writes back is block `t` — rows t·10000 … t·10000 + 9999 — of the second read-out of the
    table, with the weights and bias the joined arrays hold in their second halves. -/
theorem flushed4_eq (c : Dev nD) (t : Fin cfg0.N) :
    (dats m 0 c).flushed 4 t
      = ((cfg0.win 4).blk t).view.read (Elt Ideal)
          (Projection.clipped (V m c main_v12) (m ((c : Thread nD τ).loc main_arg6)) (m ((c : Thread nD τ).loc main_arg7))) :=
  flushed4_of m c t _ fun p j n hn =>
    BlockValue.second_entry (V m c main_v12) (V m c main_v13) (V m c main_v15) (m ((c : Thread nD τ).loc main_arg6)) (m ((c : Thread nD τ).loc main_arg7))
      (EntryValue.weights_hi m c) (EntryValue.bias_hi m c) (iblk m c 0 t) (iblk m c 1 t) (iblk m c 2 t) n p j
      (fun k => table_block m c t p k n hn) (fun k q => weights_block m c t k q) (fun q => bias_block m c t q)

/-- The second output after the run is the second read-out of the aggregated table — the table written as the
    reference's own table of the inputs. -/
theorem final4 (c : Dev nD) :
    (dats m 0 c).arrAt 4 cfg0.N = Projection.clipped (Cert.ReferenceIdeal.Read.val_main_v12 (F := Ideal) (m ((c : Thread nD τ).loc main_arg0)) (m ((c : Thread nD τ).loc main_arg1)) (m ((c : Thread nD τ).loc main_arg2)) (m ((c : Thread nD τ).loc main_arg3))) (m ((c : Thread nD τ).loc main_arg6)) (m ((c : Thread nD τ).loc main_arg7)) := by
  rw [← EntryValue.table_eq m c]
  exact (dats m 0 c).arrAt_eq_of_cover 4 _ (fun t _ => flushed4_eq m c t) cover4

/-! ## The run -/

/-- Every weakly fair execution of the kernel's program terminates with the two outputs at the two read-outs of the
    aggregated table, and the inputs unchanged. -/
theorem run : θ_run defs (onTc (τ := τ) (main (F := Ideal))) ⟨m, fun _ => 0, ρ⟩ fun r => ∀ c : Dev nD,
      r.2.mem ((c : Thread nD τ).loc main_v16_0) = Projection.affine (Cert.ReferenceIdeal.Read.val_main_v12 (F := Ideal) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))
      ∧ r.2.mem ((c : Thread nD τ).loc main_v16_1) = Projection.clipped (Cert.ReferenceIdeal.Read.val_main_v12 (F := Ideal) (m ((c : Thread nD τ).loc main_arg0)) (m ((c : Thread nD τ).loc main_arg1)) (m ((c : Thread nD τ).loc main_arg2)) (m ((c : Thread nD τ).loc main_arg3))) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final3 m c), (h c).2.1.trans (final4 m c), (h c).2.2⟩)
    (Value.run_blocks m ρ)

end Cert.KernelIdeal.ArrayValue

end
-- ==== Proof.RefProjection.lean ====
/-
  The reference's two results are the two read-outs of its aggregated table.

  The reference multiplies the aggregated table by each weight matrix with a general matrix product
  contracting the table's 128 columns against the weights' 128 rows, adds the bias row spread over all
  100000 rows, and clips the second result between two constants spread over the whole array.  Read at
  the entry (n, j) this is  (∑ₖ table[n, k] · W[k, j]) + b[j]  and, for the second result,
  min (3, max (-10, ·)) of the same expression: the functions `Projection.affine` and
  `Projection.clipped` of the table.  The table itself — a gather of rows, a scaling and a
  scatter-add — enters only as an array: nothing about how it is built is used.
-/
import proofs.«173173_j27487790695252_2_alg».proof.Proof.Gen.ReferenceIdeal.Read
import proofs.«173173_j27487790695252_2_alg».proof.Proof.Projection

noncomputable section

namespace Cert.ReferenceIdeal.RefValue

open Cert.ReferenceIdeal Cert.ReferenceIdeal.Read Idealize.ShloMosaic Idealize.ShloMosaic.ValueIdx

/-- The left factor of term `k` of entry (n, j) of either matrix product is the table at (n, k). -/
theorem lidx13 (n : Fin 100000) (j : Fin 64) (k : Fin 128) : lidx_main_v13 (ix2 n j) k = ix2 n k :=
  funext fun a => Fin.ext (by match a with | ⟨0, _⟩ => rfl | ⟨1, _⟩ => rfl)

/-- The right factor of term `k` of entry (n, j) is the weight at (k, j). -/
theorem ridx13 (n : Fin 100000) (j : Fin 64) (k : Fin 128) : ridx_main_v13 (ix2 n j) k = ix2 k j :=
  funext fun a => Fin.ext (by match a with | ⟨0, _⟩ => rfl | ⟨1, _⟩ => rfl)

theorem lidx17 (n : Fin 100000) (j : Fin 64) (k : Fin 128) : lidx_main_v17 (ix2 n j) k = ix2 n k :=
  funext fun a => Fin.ext (by match a with | ⟨0, _⟩ => rfl | ⟨1, _⟩ => rfl)

theorem ridx17 (n : Fin 100000) (j : Fin 64) (k : Fin 128) : ridx_main_v17 (ix2 n j) k = ix2 k j :=
  funext fun a => Fin.ext (by match a with | ⟨0, _⟩ => rfl | ⟨1, _⟩ => rfl)

/-- The bias row spread over the rows reads, at (n, j), the bias at j. -/
theorem bidx15 (n : Fin 100000) (j : Fin 64) : idx_main_v14 (idx_main_v15 (ix2 n j)) = ix1 j :=
  funext fun a => Fin.ext (by match a with | ⟨0, _⟩ => rfl)

theorem bidx19 (n : Fin 100000) (j : Fin 64) : idx_main_v18 (idx_main_v19 (ix2 n j)) = ix1 j :=
  funext fun a => Fin.ext (by match a with | ⟨0, _⟩ => rfl)

/-- The reference's first result is `table · W + b`. -/
theorem first_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x64, .f32⟩ : BufTy).Contents (Elt Ideal))
    (x5 : (⟨S64, .f32⟩ : BufTy).Contents (Elt Ideal)) :
    val_main_v16 (F := Ideal) x0 x1 x2 x3 x4 x5 = Projection.affine (val_main_v12 (F := Ideal) x0 x1 x2 x3) x4 x5 := by
  funext i
  obtain ⟨n, j, rfl⟩ : ∃ (n : Fin 100000) (j : Fin 64), i = ix2 n j := ⟨i 0, i 1, eq_ix2 i⟩
  rw [val_main_v16_apply, val_main_v13_apply, val_main_v15_apply, val_main_v14_apply, Projection.affine_ix2]
  simp only [lidx13, ridx13, bidx15]
  rfl

/-- The reference's second result is `table · W + b` clipped to [-10, 3]. -/
theorem second_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x6 : (⟨S128x64, .f32⟩ : BufTy).Contents (Elt Ideal))
    (x7 : (⟨S64, .f32⟩ : BufTy).Contents (Elt Ideal)) :
    val_main_v21 (F := Ideal) x0 x1 x2 x3 x6 x7 = Projection.clipped (val_main_v12 (F := Ideal) x0 x1 x2 x3) x6 x7 := by
  funext i
  obtain ⟨n, j, rfl⟩ : ∃ (n : Fin 100000) (j : Fin 64), i = ix2 n j := ⟨i 0, i 1, eq_ix2 i⟩
  rw [val_main_v21_apply, val_main_call0_v4_apply, val_main_call0_v3_apply, val_main_cst_2_apply,
    val_main_call0_v2_apply, val_main_call0_v1_apply, val_main_call0_v0_apply, val_main_cst_1_apply,
    val_main_v20_apply, val_main_v17_apply, val_main_v19_apply, val_main_v18_apply, Projection.clipped_ix2]
  simp only [lidx17, ridx17, bidx19]
  rfl

end Cert.ReferenceIdeal.RefValue

end
-- ==== Proof.lean ====
/-
  A sparse aggregation followed by two linear read-outs: the kernel against its reference.

  Both programs first aggregate the node features over the edge list — rows of the input gathered by the
  column indices, scaled by the edge values, and added into the rows named by the row indices — by the
  same operations; call the result the table (100000 × 128).

  The reference then forms  table · W₁ + b₁  and  clip (table · W₂ + b₂)  to [-10, 3], each with a matrix
  product over the table's 128 columns.

  The kernel sets the two weight matrices side by side (128 × 128) and the two bias vectors end to end
  (one row of 128), and runs a grid of 10 points: point t multiplies rows t·10000 … t·10000 + 9999 of the
  table by the joined weights from a zero accumulator (after a change of number format that is the
  identity on the extended reals), adds the joined bias row, and writes columns 0 … 63 of the result to the
  same rows of the first output and columns 64 … 127, clipped to [-10, 3], to the same rows of the second.

  Entry (n, j) of either output is therefore  (∑ₖ table[n, k] · W[k, j]) + b[j]  on both sides — column j of
  the joined weights is column j of W₁, column j + 64 is column j of W₂, and likewise for the bias — with
  the same clip on the second: the same sum of the same products, term by term.  No law of arithmetic is
  needed, so nothing is asked of the inputs; the blocks of the 10 points tile the 100000 rows.

  Modules:  Projection (the two read-outs as functions of the table),  RefProjection (the reference's
  results are those functions),  KernelBlock (what one grid point computes),  EntryArrays (the arrays the
  grid reads),  KernelArrays (from blocks to the whole outputs).
-/
import proofs.«173173_j27487790695252_2_alg».proof.Defs
import proofs.«173173_j27487790695252_2_alg».proof.Proof.Gen.Kernel
import proofs.«173173_j27487790695252_2_alg».proof.Proof.Gen.Kernel.Frame
import proofs.«173173_j27487790695252_2_alg».proof.Proof.Gen.KernelIdeal
import proofs.«173173_j27487790695252_2_alg».proof.Proof.Gen.KernelIdeal.Frame
import proofs.«173173_j27487790695252_2_alg».proof.Proof.Gen.KernelIdeal.Value
import proofs.«173173_j27487790695252_2_alg».proof.Proof.Gen.ReferenceIdeal
import proofs.«173173_j27487790695252_2_alg».proof.Proof.Gen.ReferenceIdeal.Run
import proofs.«173173_j27487790695252_2_alg».proof.Proof.Gen.ReferenceIdeal.Read
import proofs.«173173_j27487790695252_2_alg».proof.Proof.Gen.Pre_finite_inputs
import proofs.«173173_j27487790695252_2_alg».proof.Proof.KernelArrays
import proofs.«173173_j27487790695252_2_alg».proof.Proof.RefProjection
import Idealize.ShloMosaic.Adequacy
import Idealize.ShloMosaic.Init

noncomputable section

namespace Cert.Proof

open Idealize.ShloMosaic Idealize.SL.Sem

/-- The kernel's program as printed runs to the end, faults nowhere and leaves its inputs as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with what it says of the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel over the extended reals rewrote none of its operations. -/
theorem preserves : Cert.preserves_Kernel_KernelIdeal := trivial

/-- From inputs that agree, the kernel's two outputs and the reference's two results are the same two read-outs of
    the same aggregated table. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ?_) (Cert.ReferenceIdeal.Value.run (F := Ideal) m' ρ')
  obtain ⟨h16, h21, hargs⟩ := h c
  obtain ⟨a0, a1, a2, a3, a4, a5, a6, a7⟩ := hagree c
  refine ⟨?_, ?_, hargs⟩
  · rw [h16, Cert.ReferenceIdeal.Read.val_main_v16_eq, Cert.ReferenceIdeal.RefValue.first_eq, a0, a1, a2, a3, a4, a5]
  · rw [h21, Cert.ReferenceIdeal.Read.val_main_v21_eq, Cert.ReferenceIdeal.RefValue.second_eq, a0, a1, a2, a3, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
